-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_inv_12" .f32 0xBDAAAAAB#32 ((-1 / 12 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6144x512 : Shape := ⟨2, ![6144, 512]⟩
abbrev S6144x3 : Shape := ⟨2, ![6144, 3]⟩
abbrev S6144 : Shape := ⟨1, ![6144]⟩
abbrev S_ : Shape := ⟨0, ![]⟩

class Facts : Prop where
  bcast_S_S6144x512 : S_.BroadcastsInDim S6144x512 (![] : Fin 0 → Fin S6144x512.rank)
  reducesTo_S6144x512_S_d0_1 : S6144x512.ReducesTo [0, 1] S_
  h_S_ : 0 < S_.numel
  bcast_S_S6144x3 : S_.BroadcastsInDim S6144x3 (![] : Fin 0 → Fin S6144x3.rank)
  reducesTo_S6144x3_S_d0_1 : S6144x3.ReducesTo [0, 1] S_
  bcast_S_S6144 : S_.BroadcastsInDim S6144 (![] : Fin 0 → Fin S6144.rank)
  reducesTo_S6144_S_d0 : S6144.ReducesTo [0] S_

variable [Facts]

def fn {F : FTy → Type} [FloatOps F] (main_arg0 : FVec F S6144x512 .f32) (main_arg1 : FVec F S6144x3 .f32) (main_arg2 : FVec F S6144 .f32) : IVec S_ 1 :=
  let main_v0 : FVec F S6144x512 .f32 := Host.absf main_arg0
  let main_cst : FVec F S_ .f32 := constant S_ .f32 0x7F800000#32
  let main_v1 : FVec F S6144x512 .f32 := broadcastInDim S6144x512 ![] bcast_S_S6144x512 main_cst
  let main_v2 : IVec S6144x512 1 := cmpf .olt main_v0 main_v1
  let main_c : IVec S_ 1 := constantI S_ 1 1#1
  let main_v3 : IVec S_ 1 := (fun x v => Host.reduce IntOp.andi x v reducesTo_S6144x512_S_d0_1 h_S_) main_v2 main_c
  let main_v4 : FVec F S6144x3 .f32 := Host.absf main_arg1
  let main_cst_0 : FVec F S_ .f32 := constant S_ .f32 0x7F800000#32
  let main_v5 : FVec F S6144x3 .f32 := broadcastInDim S6144x3 ![] bcast_S_S6144x3 main_cst_0
  let main_v6 : IVec S6144x3 1 := cmpf .olt main_v4 main_v5
  let main_c_1 : IVec S_ 1 := constantI S_ 1 1#1
  let main_v7 : IVec S_ 1 := (fun x v => Host.reduce IntOp.andi x v reducesTo_S6144x3_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  main_v13
-- ==== Kernel.lean ====
abbrev S6144x512 : Shape := ⟨2, ![6144, 512]⟩
abbrev S6144x3 : Shape := ⟨2, ![6144, 3]⟩
abbrev S6144 : Shape := ⟨1, ![6144]⟩
abbrev S3x6144 : Shape := ⟨2, ![3, 6144]⟩
abbrev S6144x1 : Shape := ⟨2, ![6144, 1]⟩
abbrev S1x6144 : Shape := ⟨2, ![1, 6144]⟩
abbrev S6144x6144 : Shape := ⟨2, ![6144, 6144]⟩
abbrev S128x3 : Shape := ⟨2, ![128, 3]⟩
abbrev S128x1 : Shape := ⟨2, ![128, 1]⟩
abbrev S128x512 : Shape := ⟨2, ![128, 512]⟩
abbrev S128x6144 : Shape := ⟨2, ![128, 6144]⟩
abbrev S128 : Shape := ⟨1, ![128]⟩

abbrev nBuf : Space → Nat
  | .hbm => 9
  | .vmem => 11
  | .smem => 0
  | _ => 0

abbrev bufTy : (tb : Table) → Fin (tcTables nBuf tb) → BufTy
  | .hbm, ⟨0, _⟩ => ⟨S6144x512, .f32⟩
  | .hbm, ⟨1, _⟩ => ⟨S6144x3, .f32⟩
  | .hbm, ⟨2, _⟩ => ⟨S6144, .f32⟩
  | .hbm, ⟨3, _⟩ => ⟨S3x6144, .f32⟩
  | .hbm, ⟨4, _⟩ => ⟨S6144x1, .f32⟩
  | .hbm, ⟨5, _⟩ => ⟨S1x6144, .f32⟩
  | .hbm, ⟨6, _⟩ => ⟨S6144x512, .bf16⟩
  | .hbm, ⟨7, _⟩ => ⟨S6144x512, .f32⟩
  | .hbm, ⟨8, _⟩ => ⟨S6144x6144, .f32⟩
  | .local _ .vmem, ⟨0, _⟩ => ⟨S128x3, .f32⟩
  | .local _ .vmem, ⟨1, _⟩ => ⟨S128x3, .f32⟩
  | .local _ .vmem, ⟨2, _⟩ => ⟨S3x6144, .f32⟩
  | .local _ .vmem, ⟨3, _⟩ => ⟨S128x1, .f32⟩
  | .local _ .vmem, ⟨4, _⟩ => ⟨S128x1, .f32⟩
  | .local _ .vmem, ⟨5, _⟩ => ⟨S1x6144, .f32⟩
  | .local _ .vmem, ⟨6, _⟩ => ⟨S6144x512, .bf16⟩
  | .local _ .vmem, ⟨7, _⟩ => ⟨S128x512, .f32⟩
  | .local _ .vmem, ⟨8, _⟩ => ⟨S128x512, .f32⟩
  | .local _ .vmem, ⟨9, _⟩ => ⟨S128x6144, .f32⟩
  | .local _ .vmem, ⟨10, _⟩ => ⟨S128x6144, .f32⟩
  | _, _ => ⟨S6144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6144x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S6144x3_S3x6144_1_0 : S6144x3.Transposes [1, 0] S3x6144
  shapeCasts_S6144_S6144x1 : S6144.ShapeCasts S6144x1
  shapeCasts_S6144_S1x6144 : S6144.ShapeCasts S1x6144
  bitsLt_bf16_f32 : FTy.bits .bf16 < FTy.bits .f32
  inb_S128x3_S128x3_0_0 : ∀ a, (![0, 0] : Fin 2 → Nat) a + S128x3.size a ≤ S128x3.size a
  h_S128x3 : 0 < S128x3.numel
  inb_S3x6144_S3x6144_0_0 : ∀ a, (![0, 0] : Fin 2 → Nat) a + S3x6144.size a ≤ S3x6144.size a
  h_S3x6144 : 0 < S3x6144.numel
  shapeCasts_S3x6144_S3x6144 : S3x6144.ShapeCasts S3x6144
  slices_S128x3_o0_0_S128x1 : S128x3.Slices ![0, 0] S128x1
  slices_S128x3_o0_1_S128x1 : S128x3.Slices ![0, 1] S128x1
  slices_S128x3_o0_2_S128x1 : S128x3.Slices ![0, 2] S128x1
  slices_S3x6144_o0_0_S1x6144 : S3x6144.Slices ![0, 0] S1x6144
  slices_S3x6144_o1_0_S1x6144 : S3x6144.Slices ![1, 0] S1x6144
  slices_S3x6144_o2_0_S1x6144 : S3x6144.Slices ![2, 0] S1x6144
  broadcasts_S128x1_S128x6144 : S128x1.Broadcasts S128x6144
  broadcasts_S1x6144_S128x6144 : S1x6144.Broadcasts S128x6144
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  iota_S128x1_d0_w32 : S128x1.Iotas .tc 32 [0]
  iota_S1x6144_d1_w32 : S1x6144.Iotas .tc 32 [1]
  reduces_S128x6144_S128 : S128x6144.Reduces [1] S128
  shapeCasts_S128_S128x1 : S128.ShapeCasts S128x1
  inb_S128x6144_S128x6144_0_0 : ∀ a, (![0, 0] : Fin 2 → Nat) a + S128x6144.size a ≤ S128x6144.size a
  h_S128x6144 : 0 < S128x6144.numel
  inb_S6144x512_S6144x512_0_0 : ∀ a, (![0, 0] : Fin 2 → Nat) a + S6144x512.size a ≤ S6144x512.size a
  h_S6144x512 : 0 < S6144x512.numel
  shapeCasts_S6144x512_S6144x512 : S6144x512.ShapeCasts S6144x512
  inb_S128x512_S128x512_0_0 : ∀ a, (![0, 0] : Fin 2 → Nat) a + S128x512.size a ≤ S128x512.size a
  h_S128x512 : 0 < S128x512.numel
  dot_S128x6144_S6144x512_S128x512_1_0_0_1_n_n_wf : DotDims.WF S128x6144 S6144x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3.size a ≤ S6144x3.size a
  hwx0_0 : ∀ i : grid0.Coords, EltTy.bits .f32 = 32 ∨ (Rect.block (s := S6144x3) S128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x6144.size a ≤ S3x6144.size a
  hwx0_1 : ∀ i : grid0.Coords, EltTy.bits .f32 = 32 ∨ (Rect.block (s := S3x6144) S3x6144.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S6144x1.size a
  hwx0_2 : ∀ i : grid0.Coords, EltTy.bits .f32 = 32 ∨ (Rect.block (s := S6144x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x6144.size a ≤ S1x6144.size a
  hwx0_3 : ∀ i : grid0.Coords, EltTy.bits .f32 = 32 ∨ (Rect.block (s := S1x6144) S1x6144.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6144x512.size a ≤ S6144x512.size a
  hwx0_4 : ∀ i : grid0.Coords, EltTy.bits .bf16 = 32 ∨ (Rect.block (s := S6144x512) S6144x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S6144x512.size a
  hwx0_5 : ∀ i : grid0.Coords, EltTy.bits .f32 = 32 ∨ (Rect.block (s := S6144x512) S128x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x6144.size a ≤ S6144x6144.size a
  hwx0_6 : ∀ i : grid0.Coords, EltTy.bits .f32 = 32 ∨ (Rect.block (s := S6144x6144) S128x6144.size (cc0_transform_6 i) (hinb0_6 i)).WholeWords (EltTy.packing .f32)

variable [Facts₀]

def dot_S128x6144_S6144x512_S128x512_1_0_0_1_n_n : DotDims S128x6144 S6144x512 S128x512 where
  lhsContracting := [1]
  rhsContracting := [0]
  lhsNonContracting := [0]
  rhsNonContracting := [1]
  lhsBatch := []
  rhsBatch := []
  wf := dot_S128x6144_S6144x512_S128x512_1_0_0_1_n_n_wf

abbrev win0_0 : Pipeline.Window sig grid0 :=
  Pipeline.Window.ofSpec (Memref.whole main_arg1) S128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x6144.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x6144.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S6144x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S128x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S128x6144.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S6144x512 : Shape := ⟨2, ![6144, 512]⟩
abbrev S6144x3 : Shape := ⟨2, ![6144, 3]⟩
abbrev S6144 : Shape := ⟨1, ![6144]⟩
abbrev S_ : Shape := ⟨0, ![]⟩
abbrev S6144x1 : Shape := ⟨2, ![6144, 1]⟩
abbrev S1x6144 : Shape := ⟨2, ![1, 6144]⟩
abbrev S6144x6144 : Shape := ⟨2, ![6144, 6144]⟩
abbrev S3x6144 : Shape := ⟨2, ![3, 6144]⟩

abbrev nBuf : Space → Nat
  | .hbm => 68
  | .vmem => 0
  | .smem => 0
  | _ => 0

abbrev bufTy : (tb : Table) → Fin (tcTables nBuf tb) → BufTy
  | .hbm, ⟨0, _⟩ => ⟨S6144x512, .f32⟩
  | .hbm, ⟨1, _⟩ => ⟨S6144x3, .f32⟩
  | .hbm, ⟨2, _⟩ => ⟨S6144, .f32⟩
  | .hbm, ⟨3, _⟩ => ⟨S6144x3, .f32⟩
  | .hbm, ⟨4, _⟩ => ⟨S_, .f32⟩
  | .hbm, ⟨5, _⟩ => ⟨S6144, .f32⟩
  | .hbm, ⟨6, _⟩ => ⟨S6144x1, .f32⟩
  | .hbm, ⟨7, _⟩ => ⟨S1x6144, .f32⟩
  | .hbm, ⟨8, _⟩ => ⟨S6144x6144, .f32⟩
  | .hbm, ⟨9, _⟩ => ⟨S6144x6144, .f32⟩
  | .hbm, ⟨10, _⟩ => ⟨S6144x6144, .f32⟩
  | .hbm, ⟨11, _⟩ => ⟨S3x6144, .f32⟩
  | .hbm, ⟨12, _⟩ => ⟨S6144x6144, .f32⟩
  | .hbm, ⟨13, _⟩ => ⟨S_, .f32⟩
  | .hbm, ⟨14, _⟩ => ⟨S6144x6144, .f32⟩
  | .hbm, ⟨15, _⟩ => ⟨S6144x6144, .f32⟩
  | .hbm, ⟨16, _⟩ => ⟨S6144x6144, .f32⟩
  | .hbm, ⟨17, _⟩ => ⟨S_, .f32⟩
  | .hbm, ⟨18, _⟩ => ⟨S6144x6144, .f32⟩
  | .hbm, ⟨19, _⟩ => ⟨S6144x6144, .f32⟩
  | .hbm, ⟨20, _⟩ => ⟨S6144x6144, .f32⟩
  | .hbm, ⟨21, _⟩ => ⟨S_, .f32⟩
  | .hbm, ⟨22, _⟩ => ⟨S6144x6144, .f32⟩
  | .hbm, ⟨23, _⟩ => ⟨S6144x6144, .f32⟩
  | .hbm, ⟨24, _⟩ => ⟨S6144x1, .f32⟩
  | .hbm, ⟨25, _⟩ => ⟨S1x6144, .f32⟩
  | .hbm, ⟨26, _⟩ => ⟨S6144x6144, .f32⟩
  | .hbm, ⟨27, _⟩ => ⟨S6144x6144, .f32⟩
  | .hbm, ⟨28, _⟩ => ⟨S6144x6144, .f32⟩
  | .hbm, ⟨29, _⟩ => ⟨S_, .f32⟩
  | .hbm, ⟨30, _⟩ => ⟨S6144x6144, .f32⟩
  | .hbm, ⟨31, _⟩ => ⟨S6144x6144, .f32⟩
  | .hbm, ⟨32, _⟩ => ⟨S6144x6144, .f32⟩
  | .hbm, ⟨33, _⟩ => ⟨S6144x6144, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S6144x6144, .f32⟩
  | .hbm, ⟨38, _⟩ => ⟨S6144x6144, .f32⟩
  | .hbm, ⟨39, _⟩ => ⟨S_, .f32⟩
  | .hbm, ⟨40, _⟩ => ⟨S6144x6144, .f32⟩
  | .hbm, ⟨41, _⟩ => ⟨S6144x6144, .f32⟩
  | .hbm, ⟨42, _⟩ => ⟨S6144x6144, .f32⟩
  | .hbm, ⟨43, _⟩ => ⟨S_, .f32⟩
  | .hbm, ⟨44, _⟩ => ⟨S6144x6144, .f32⟩
  | .hbm, ⟨45, _⟩ => ⟨S6144x6144, .f32⟩
  | .hbm, ⟨46, _⟩ => ⟨S6144x6144, .f32⟩
  | .hbm, ⟨47, _⟩ => ⟨S6144x6144, .f32⟩
  | .hbm, ⟨48, _⟩ => ⟨S6144x6144, .i32⟩
  | .hbm, ⟨49, _⟩ => ⟨S6144x6144, .i32⟩
  | .hbm, ⟨50, _⟩ => ⟨S_, .i32⟩
  | .hbm, ⟨51, _⟩ => ⟨S6144x6144, .i32⟩
  | .hbm, ⟨52, _⟩ => ⟨S6144x6144, .i32⟩
  | .hbm, ⟨53, _⟩ => ⟨S6144x6144, .i1⟩
  | .hbm, ⟨54, _⟩ => ⟨S6144x6144, .f32⟩
  | .hbm, ⟨55, _⟩ => ⟨S_, .f32⟩
  | .hbm, ⟨56, _⟩ => ⟨S6144x6144, .f32⟩
  | .hbm, ⟨57, _⟩ => ⟨S6144x6144, .f32⟩
  | .hbm, ⟨58, _⟩ => ⟨S6144x6144, .f32⟩
  | .hbm, ⟨59, _⟩ => ⟨S_, .f32⟩
  | .hbm, ⟨60, _⟩ => ⟨S6144, .f32⟩
  | .hbm, ⟨61, _⟩ => ⟨S6144x1, .f32⟩
  | .hbm, ⟨62, _⟩ => ⟨S_, .f32⟩
  | .hbm, ⟨63, _⟩ => ⟨S6144x1, .f32⟩
  | .hbm, ⟨64, _⟩ => ⟨S6144x1, .f32⟩
  | .hbm, ⟨65, _⟩ => ⟨S6144x6144, .f32⟩
  | .hbm, ⟨66, _⟩ => ⟨S6144x6144, .f32⟩
  | .hbm, ⟨67, _⟩ => ⟨S6144x512, .f32⟩
  | _, _ => ⟨S6144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  reducesTo_S6144x3_S6144_d1 : S6144x3.ReducesTo [1] S6144
  h_S_ : 0 < S_.numel
  bcast_S6144_S6144x1_0 : S6144.BroadcastsInDim S6144x1 (![0] : Fin 1 → Fin S6144x1.rank)
  bcast_S6144_S1x6144_1 : S6144.BroadcastsInDim S1x6144 (![1] : Fin 1 → Fin S1x6144.rank)
  bcast_S6144x1_S6144x6144_0_1 : S6144x1.BroadcastsInDim S6144x6144 (![0, 1] : Fin 2 → Fin S6144x6144.rank)
  bcast_S1x6144_S6144x6144_0_1 : S1x6144.BroadcastsInDim S6144x6144 (![0, 1] : Fin 2 → Fin S6144x6144.rank)
  transposes_S6144x3_S3x6144_1_0 : S6144x3.Transposes [1, 0] S3x6144
  bcast_S_S6144x6144 : S_.BroadcastsInDim S6144x6144 (![] : Fin 0 → Fin S6144x6144.rank)
  reducesTo_S6144x6144_S6144_d1 : S6144x6144.ReducesTo [1] S6144
  bcast_S_S6144x1 : S_.BroadcastsInDim S6144x1 (![] : Fin 0 → Fin S6144x1.rank)
  dot_S6144x3_S3x6144_S6144x6144_1_0_0_1_n_n_wf : DotDims.WF S6144x3 S3x6144 S6144x6144 [1] [0] [0] [1] [] []
  dot_S6144x6144_S6144x512_S6144x512_1_0_0_1_n_n_wf : DotDims.WF S6144x6144 S6144x512 S6144x512 [1] [0] [0] [1] [] []

variable [Facts₀]

def dot_S6144x3_S3x6144_S6144x6144_1_0_0_1_n_n : DotDims S6144x3 S3x6144 S6144x6144 where
  lhsContracting := [1]
  rhsContracting := [0]
  lhsNonContracting := [0]
  rhsNonContracting := [1]
  lhsBatch := []
  rhsBatch := []
  wf := dot_S6144x3_S3x6144_S6144x6144_1_0_0_1_n_n_wf
def dot_S6144x6144_S6144x512_S6144x512_1_0_0_1_n_n : DotDims S6144x6144 S6144x512 S6144x512 where
  lhsContracting := [1]
  rhsContracting := [0]
  lhsNonContracting := [0]
  rhsNonContracting := [1]
  lhsBatch := []
  rhsBatch := []
  wf := dot_S6144x6144_S6144x512_S6144x512_1_0_0_1_n_n_wf

class Facts : Prop extends Facts₀ where

variable [Facts]
-- ==== Proof.Spec.lean ====
/-
  The contact-diffusion operator, as one function of its argument arrays on the extended reals.

  For points c_i ∈ ℝ³ (rows of `coords`) and exponents α_i, with
    D_ij  = sqrt (max (|c_i − c_j|², ε₁)) + ε₂            (ε₁, ε₂ > 0 two float literals)
    a_ij  = ½ (α_i + α_j)
    w_ij  = clip (D_ij ^ (−a_ij), lo, hi) · exp (−D_ij / 12)   off the diagonal,  w_ii = 0
    K_ij  = w_ij / (Σ_k w_ik + lo)                           (rows normalised)
    out   = K · latent.
  The specification below spells |c_i − c_j|² as the sum of the three squared differences, the power as
  exp (−a · log D) and the scale as the product with −1/12: the form in which one row block is computed. The
  laws that identify the other spelling — |c_i|² + |c_j|² − 2 ⟨c_i, c_j⟩, the real power D ^ (−a), the quotient
  by 12, and the diagonal zeroed by the factor 1 − δ_ij — are proved here over the reals, where they hold
  (they need every coordinate and exponent finite: distributivity fails at ±∞), together with D > 0, which the
  power law needs and ε₂ > 0 gives.
-/
import Idealize.ShloMosaic.PureOps.Ideal
import Idealize.ShloMosaic.PureOps.Ideal.Laws
import Idealize.ShloMosaic.Lib.ValueIdx

noncomputable section

namespace Cert.Diffusion

open Idealize.ShloMosaic Idealize.ShloMosaic.ValueIdx
open scoped BigOperators

/-! ## The float literals, as extended reals -/

/-- ε₁ (the f32 nearest 1e-12), under the square root. -/
abbrev eps1 : EReal := Ideal.ofBits .f32 0x2B8CBCCC#32
/-- ε₂ (the f32 nearest 1e-6), added to the distance. -/
abbrev eps2 : EReal := Ideal.ofBits .f32 0x358637BD#32
/-- ½. -/
abbrev half : EReal := Ideal.ofBits .f32 0x3F000000#32
/-- The clip's lower end (the f32 nearest 1e-8), also the normaliser's guard. -/
abbrev lo : EReal := Ideal.ofBits .f32 0x322BCC77#32
/-- The clip's upper end, 1000. -/
abbrev hi : EReal := Ideal.ofBits .f32 0x447A0000#32
/-- +0.0. -/
abbrev zero32 : EReal := Ideal.ofBits .f32 0x00000000#32

theorem zero32_eq : zero32 = 0 := Ideal.ofBits_zero_f32

theorem one_eq : Ideal.ofBits .f32 0x3F800000#32 = 1 := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem twelve_eq : Ideal.ofBits .f32 0x41400000#32 = ((12 : ℝ) : EReal) := by
  simp [Ideal.ofBits, Ideal.ieee, -EReal.coe_mul]; norm_num

theorem half_real : ∃ h : ℝ, half = (h : EReal) :=
  ⟨_, by simp [half, Ideal.ofBits, Ideal.ieee, -EReal.coe_mul]; rfl⟩

theorem eps1_pos : ∃ r : ℝ, 0 < r ∧ eps1 = (r : EReal) := by
  refine ⟨_, ?_, by simp [eps1, Ideal.ofBits, Ideal.ieee, -EReal.coe_mul]; rfl⟩
  positivity

theorem eps2_pos : ∃ r : ℝ, 0 < r ∧ eps2 = (r : EReal) := by
  refine ⟨_, ?_, by simp [eps2, Ideal.ofBits, Ideal.ieee, -EReal.coe_mul]; rfl⟩
  positivity

/-! ## The specification -/

/-- D: the guarded distance between two points given by their coordinates. -/
def dist (a0 a1 a2 b0 b1 b2 : EReal) : EReal :=
  Ideal.sqrt (max (((a0 - b0) * (a0 - b0) + (a1 - b1) * (a1 - b1)) + (a2 - b2) * (a2 - b2)) eps1) + eps2

/-- w off the diagonal: the clipped power times the exponential decay. -/
def weight (D ai aj : EReal) : EReal :=
  min hi (max lo (Ideal.exp ((zero32 - half * (ai + aj)) * Ideal.log D))) * Ideal.exp (D * ((-1 / 12 : ℝ) : EReal))

abbrev Coords := (⟨2, ![6144, 3]⟩ : Shape).Idx → EReal
abbrev Alpha := (⟨1, ![6144]⟩ : Shape).Idx → EReal
abbrev Latent := (⟨2, ![6144, 512]⟩ : Shape).Idx → EReal

/-- D_ij. -/
def distAt (c : Coords) (i j : Fin 6144) : EReal :=
  dist (c (ix2 i 0)) (c (ix2 i 1)) (c (ix2 i 2)) (c (ix2 j 0)) (c (ix2 j 1)) (c (ix2 j 2))

/-- w_ij, the diagonal zeroed. -/
def entry (c : Coords) (α : Alpha) (i j : Fin 6144) : EReal :=
  if i = j then zero32 else weight (distAt c i j) (α (ix1 i)) (α (ix1 j))

/-- K_ij: row i normalised by its sum plus the guard. -/
def kn (c : Coords) (α : Alpha) (i j : Fin 6144) : EReal :=
  Ideal.div (entry c α i j) ((∑ k : Fin 6144, entry c α i k) + lo)

/-- (K · latent)_id. -/
def outAt (L : Latent) (c : Coords) (α : Alpha) (i : Fin 6144) (d : Fin 512) : EReal :=
  ∑ k : Fin 6144, kn c α i k * L (ix2 k d)

/-- K as an array. -/
def kArr (c : Coords) (α : Alpha) : (⟨2, ![6144, 6144]⟩ : Shape).Idx → EReal :=
  fun p => kn c α ⟨(p 0).val, idx2_lt0 p⟩ ⟨(p 1).val, idx2_lt1 p⟩

/-- K · latent as an array. -/
def outArr (L : Latent) (c : Coords) (α : Alpha) : (⟨2, ![6144, 512]⟩ : Shape).Idx → EReal :=
  fun p => outAt L c α ⟨(p 0).val, idx2_lt0 p⟩ ⟨(p 1).val, idx2_lt1 p⟩

/-! ## The diagonal test on 32-bit words -/

/-- Two naturals below 2³² are equal exactly when their 32-bit words are. -/
theorem cmpi_eq_ofNat (a b : Nat) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · rw [if_neg h]
    have hne : BitVec.ofNat 32 a ≠ BitVec.ofNat 32 b := by
      intro e
      have := congrArg BitVec.toNat e
      rw [BitVec.toNat_ofNat, BitVec.toNat_ofNat, Nat.mod_eq_of_lt ha, Nat.mod_eq_of_lt hb] at this
      exact h this
    have hb' : (BitVec.ofNat 32 a == BitVec.ofNat 32 b) = false := beq_eq_false_iff_ne.2 hne
    rw [hb']; rfl

/-- Selecting on that bit is the case split on the equality. -/
theorem select_ite {α : Type} (p : Prop) [Decidable p] (z X : α) :
    Scalar.select (if p then 1#1 else 0#1) z X = if p then z else X := by
  by_cases h : p
  · rw [if_pos h, if_pos h]; exact select_one z X
  · rw [if_neg h, if_neg h]; exact select_zero z X

/-- The factor 1 − δ zeroes exactly what the selection zeroes (δ the bit read as 0 or 1). -/
theorem mask_mul (X : EReal) (p : Prop) [Decidable p] :
    X * ((1 : EReal) - (((if p then 1#1 else 0#1 : BitVec 1).toNat : ℝ) : EReal)) = if p then 0 else X := by
  by_cases h : p
  · rw [if_pos h, if_pos h]
    have : ((1 : EReal) - (((1#1 : BitVec 1).toNat : ℝ) : EReal)) = 0 := by
      show ((1 : ℝ) : EReal) - (((1 : ℕ) : ℝ) : EReal) = 0
      rw [Nat.cast_one, ← EReal.coe_sub, sub_self, EReal.coe_zero]
    rw [this, mul_zero]
  · rw [if_neg h, if_neg h]
    have : ((1 : EReal) - (((0#1 : BitVec 1).toNat : ℝ) : EReal)) = 1 := by
      show ((1 : ℝ) : EReal) - (((0 : ℕ) : ℝ) : EReal) = ((1 : ℝ) : EReal)
      rw [Nat.cast_zero, ← EReal.coe_sub, sub_zero]
    rw [this, mul_one]

/-! ## The laws over the reals -/

/-- |a|² + |b|² − 2⟨a, b⟩ = |a − b|², coordinate sums grouped from the left and each started from 0. -/
theorem sqdist_eq (a0 a1 a2 b0 b1 b2 : ℝ) :
    (((0 : EReal) + (((a0 : EReal) * a0 + (a1 : EReal) * a1) + (a2 : EReal) * a2))
        + ((0 : EReal) + (((b0 : EReal) * b0 + (b1 : EReal) * b1) + (b2 : EReal) * b2)))
      - ((2 : ℝ) : EReal) * ((((a0 : EReal) * b0 + (a1 : EReal) * b1) + (a2 : EReal) * b2))
    = (((a0 : EReal) - b0) * ((a0 : EReal) - b0) + ((a1 : EReal) - b1) * ((a1 : EReal) - b1))
        + ((a2 : EReal) - b2) * ((a2 : EReal) - b2) := by
  rw [zero_add, zero_add]
  norm_cast
  ring

/-- The guarded distance of a real squared distance is a positive real. -/
theorem guarded_pos (d2 e1 e2 : ℝ) (he1 : 0 < e1) (he2 : 0 < e2) :
    ∃ D : ℝ, 0 < D ∧ Ideal.sqrt (max (d2 : EReal) (e1 : EReal)) + (e2 : EReal) = (D : EReal) := by
  refine ⟨Real.sqrt (max d2 e1) + e2, by positivity, ?_⟩
  have hmax : max (d2 : EReal) (e1 : EReal) = ((max d2 e1 : ℝ) : EReal) :=
    (EReal.coe_strictMono.monotone.map_max).symm
  rw [hmax, Ideal.sqrt_coe, if_neg (not_lt.2 (le_max_of_le_right he1.le)), ← EReal.coe_add]

/-- For a positive real base the power is the exponential of the exponent times the logarithm,
    the exponent −t written as 0 − t. -/
theorem pow_eq_exp_log (D t : ℝ) (hD : 0 < D) :
    Ideal.pow (D : EReal) (-(t : EReal)) = Ideal.exp (((0 : EReal) - (t : EReal)) * Ideal.log (D : EReal)) := by
  rw [zero_sub, ← EReal.coe_neg, Ideal.pow_coe_coe, Ideal.log_coe, if_neg (not_le.2 hD), ← EReal.coe_mul, Ideal.exp_coe]
  congr 1
  show D ^ (-t) = _
  rw [Real.rpow_def_of_pos hD, mul_comm]

/-- The quotient of −D by 12 is the product of D with −1/12. -/
theorem div12_eq (D : ℝ) :
    Ideal.div (-(D : EReal)) ((12 : ℝ) : EReal) = (D : EReal) * ((-1 / 12 : ℝ) : EReal) := by
  rw [Ideal.div_coe (by norm_num : (12 : ℝ) ≠ 0), ← EReal.coe_neg, ← EReal.coe_mul, ← EReal.coe_mul]
  congr 1
  ring

end Cert.Diffusion

end
-- ==== Proof.Finite.lean ====
import proofs.«148434_j5634997092631_1_alg».proof.Pre_finite_inputs
import Idealize.ShloMosaic.PureOps.Ideal
import Idealize.ShloMosaic.Lib.ReduceAll
import Idealize.ShloMosaic.Lib.ValueIdx

noncomputable section

namespace Cert.Diffusion.Finite

open Idealize.ShloMosaic

/-- The rank-0 shape of the predicate's result has exactly one index. -/
instance scalarIdx_subsingleton : Subsingleton Cert.Pre_finite_inputs.S_.Idx := ⟨fun a b => funext fun d => d.elim0⟩

/-- An extended real whose absolute value `max x (-x)` lies strictly below `+∞` is a real number:
    at `⊤` the maximum is `⊤`, and at `⊥` the negation is `⊤`, so neither infinity passes the test. -/
theorem real_of_abs_lt_top (x : EReal) (h : max x (-x) < ⊤) : ∃ r : ℝ, x = (r : EReal) := by
  induction x using EReal.rec with
  | bot => simp at h
  | coe r => exact ⟨r, rfl⟩
  | top => simp at h

/-- One element of the predicate: the comparison `|x| < +inf` (the pattern `0x7F800000` is `+∞`) giving the bit 1
    says that `x` is a real number. -/
theorem real_of_test (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  apply real_of_abs_lt_top
  by_contra hn
  simp [hn] at h

theorem coords_real [Cert.Pre_finite_inputs.Facts] (x0 : FVec Ideal Cert.Pre_finite_inputs.S6144x512 .f32)
    (x1 : FVec Ideal Cert.Pre_finite_inputs.S6144x3 .f32) (x2 : FVec Ideal Cert.Pre_finite_inputs.S6144 .f32)
    (h : Cert.Pre_finite_inputs.fn (F := Ideal) x0 x1 x2 = (fun _ => 1#1)) (p : Cert.Pre_finite_inputs.S6144x3.Idx) :
    ∃ r : ℝ, x1 p = (r : EReal) := by
  have h0 := congrFun h ValueIdx.ix0
  dsimp only [Cert.Pre_finite_inputs.fn] at h0
  obtain ⟨h01, -⟩ := IntOp.andi_eq_one.1 h0
  obtain ⟨-, h1⟩ := IntOp.andi_eq_one.1 h01
  exact real_of_test (x1 p) (Host.reduce_andi_all _ _ _ _ _ h1 p)

theorem alpha_real [Cert.Pre_finite_inputs.Facts] (x0 : FVec Ideal Cert.Pre_finite_inputs.S6144x512 .f32)
    (x1 : FVec Ideal Cert.Pre_finite_inputs.S6144x3 .f32) (x2 : FVec Ideal Cert.Pre_finite_inputs.S6144 .f32)
    (h : Cert.Pre_finite_inputs.fn (F := Ideal) x0 x1 x2 = (fun _ => 1#1)) (p : Cert.Pre_finite_inputs.S6144.Idx) :
    ∃ r : ℝ, x2 p = (r : EReal) := by
  have h0 := congrFun h ValueIdx.ix0
  dsimp only [Cert.Pre_finite_inputs.fn] at h0
  obtain ⟨-, h2⟩ := IntOp.andi_eq_one.1 h0
  exact real_of_test (x2 p) (Host.reduce_andi_all _ _ _ _ _ h2 p)

end Cert.Diffusion.Finite
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.BlockPayload.lean ====
/-
  One row block of the operator, entry by entry.

  At grid point t the body reads rows 128·t … 128·t+127 of `coords` (x0) and of the column of exponents (x2),
  all of `coordsᵀ` (x1), the row of exponents (x3) and `latent` (x4), and stores two blocks: rows of K and rows
  of K · latent. Here each stored value is read at an index (r, j) of the block as the specification's scalar
  function of the loaded values: the guarded distance D, the clipped power, the entry with the diagonal test
  128·t + r = j carried out on 32-bit words, the row's sum and quotient, and the matrix product as a sum over the
  6144 columns. Nothing here needs a finite input: every step is the same operation on both sides.
-/
import proofs.«148434_j5634997092631_1_alg».proof.Proof.Gen.KernelIdeal.Skeleton
import proofs.«148434_j5634997092631_1_alg».proof.Proof.Spec
import proofs.«148434_j5634997092631_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.Diffusion.Block

open Idealize.ShloMosaic Idealize.ShloMosaic.ValueIdx Cert.KernelIdeal Cert.KernelIdeal.Gen Cert.Diffusion
open Cert.Lib.Keepdims
open scoped BigOperators

variable [Cert.KernelIdeal.Facts]

/-- D at (r, j) of the block: the guarded distance between row r of the loaded coordinate block and column j
    of the transposed coordinates. -/
theorem dist_block (x0 : Vec Ideal S128x3 .f32) (x1 : Vec Ideal S3x6144 .f32) (r : Fin 128) (j : Fin 6144) :
    k0_pay3 x0 x1 (ix2 r j)
      = dist (x0 (ix2 r 0)) (x0 (ix2 r 1)) (x0 (ix2 r 2)) (x1 (ix2 0 j)) (x1 (ix2 1 j)) (x1 (ix2 2 j)) := by
  have a0 : broadcastTo S128x6144 (extractStridedSlice S128x1 ![0, 0] x0 Facts₀.slices_S128x3_o0_0_S128x1) Facts₀.broadcasts_S128x1_S128x6144 (ix2 r j) = x0 (ix2 r 0) :=
    (broadcastTo_a1_ab_apply _ _ r j).trans (slice2_axis1_apply 0 x0 _ r (0 : Fin 1) (0 : Fin 3) rfl)
  have a1 : broadcastTo S128x6144 (extractStridedSlice S128x1 ![0, 1] x0 Facts₀.slices_S128x3_o0_1_S128x1) Facts₀.broadcasts_S128x1_S128x6144 (ix2 r j) = x0 (ix2 r 1) :=
    (broadcastTo_a1_ab_apply _ _ r j).trans (slice2_axis1_apply 1 x0 _ r (0 : Fin 1) (1 : Fin 3) rfl)
  have a2 : broadcastTo S128x6144 (extractStridedSlice S128x1 ![0, 2] x0 Facts₀.slices_S128x3_o0_2_S128x1) Facts₀.broadcasts_S128x1_S128x6144 (ix2 r j) = x0 (ix2 r 2) :=
    (broadcastTo_a1_ab_apply _ _ r j).trans (slice2_axis1_apply 2 x0 _ r (0 : Fin 1) (2 : Fin 3) rfl)
  have b0 : broadcastTo S128x6144 (extractStridedSlice S1x6144 ![0, 0] x1 Facts₀.slices_S3x6144_o0_0_S1x6144) Facts₀.broadcasts_S1x6144_S128x6144 (ix2 r j) = x1 (ix2 0 j) :=
    (broadcastTo_1b_ab_apply _ _ r j).trans (slice2_axis0_apply 0 x1 _ (0 : Fin 1) j (0 : Fin 3) rfl)
  have b1 : broadcastTo S128x6144 (extractStridedSlice S1x6144 ![1, 0] x1 Facts₀.slices_S3x6144_o1_0_S1x6144) Facts₀.broadcasts_S1x6144_S128x6144 (ix2 r j) = x1 (ix2 1 j) :=
    (broadcastTo_1b_ab_apply _ _ r j).trans (slice2_axis0_apply 1 x1 _ (0 : Fin 1) j (1 : Fin 3) rfl)
  have b2 : broadcastTo S128x6144 (extractStridedSlice S1x6144 ![2, 0] x1 Facts₀.slices_S3x6144_o2_0_S1x6144) Facts₀.broadcasts_S1x6144_S128x6144 (ix2 r j) = x1 (ix2 2 j) :=
    (broadcastTo_1b_ab_apply _ _ r j).trans (slice2_axis0_apply 2 x1 _ (0 : Fin 1) j (2 : Fin 3) rfl)
  unfold k0_pay3 dist
  rw [shapeCast_self]
  show Ideal.sqrt (max (((_ - _) * (_ - _) + (_ - _) * (_ - _)) + (_ - _) * (_ - _)) eps1) + eps2 = _
  rw [a0, a1, a2, b0, b1, b2]

/-- The clipped power's inner part at (r, j): max lo (exp ((0 − ½ (α_r + α_j)) · log D)). -/
theorem clip_block (x0 : Vec Ideal S128x3 .f32) (x1 : Vec Ideal S3x6144 .f32) (x2 : Vec Ideal S128x1 .f32)
    (x3 : Vec Ideal S1x6144 .f32) (r : Fin 128) (j : Fin 6144) :
    k0_pay4 x0 x1 x2 x3 (ix2 r j)
      = max lo (Ideal.exp ((zero32 - half * (x2 (ix2 r 0) + x3 (ix2 0 j))) * Ideal.log (k0_pay3 x0 x1 (ix2 r j)))) := by
  have c0 : broadcastTo S128x6144 x2 Facts₀.broadcasts_S128x1_S128x6144 (ix2 r j) = x2 (ix2 r 0) :=
    broadcastTo_a1_ab_apply _ _ r j
  have c1 : broadcastTo S128x6144 x3 Facts₀.broadcasts_S1x6144_S128x6144 (ix2 r j) = x3 (ix2 0 j) :=
    broadcastTo_1b_ab_apply _ _ r j
  unfold k0_pay4
  rw [shapeCast_self, shapeCast_self]
  show max lo (Ideal.exp ((zero32 - half * (_ + _)) * Ideal.log _)) = _
  rw [c0, c1]

/-- The named scale is −1/12 at the extended reals. -/
theorem scale_eq : Named.named (F := Ideal) κ "neg_inv_12" (φ := .f32) 0xBDAAAAAB#32 = ((-1 / 12 : ℝ) : EReal) :=
  IdealRules.named_const.ideal_named_scalar _ _ _ _ rfl

/-- The block's entries before normalisation: the clipped power times the decay, zeroed where the row's global
    index equals the column (the payload's value that the row sum and the quotient both read). -/
def masked (arg0 : BitVec 32) (v27 v43 v44 : FVec Ideal S128x6144 .f32) : FVec Ideal S128x6144 .f32 :=
  select
    (cmpi .eq
      (broadcastTo S128x6144 (addi (broadcast S128x1 (Scalar.muli arg0 128#32)) (iota .tc S128x1 32 [0] Facts₀.iota_S128x1_d0_w32)) Facts₀.broadcasts_S128x1_S128x6144)
      (broadcastTo S128x6144 (iota .tc S1x6144 32 [1] Facts₀.iota_S1x6144_d1_w32) Facts₀.broadcasts_S1x6144_S128x6144))
    (broadcast S128x6144 (Scalar.ofBits .f32 0x00000000#32))
    (mulf (minimumf v44 v43) (exp (mulf v27 (broadcast S128x6144 (Named.named κ "neg_inv_12" 0xBDAAAAAB#32)))))

/-- The stored K block is the masked entries divided by their row sums plus the guard. -/
theorem pay1_eq (arg0 : BitVec 32) (v27 v43 v44 : FVec Ideal S128x6144 .f32) :
    k0_pay1 arg0 v27 v43 v44
      = divf (masked arg0 v27 v43 v44)
          (broadcastTo S128x6144
            (addf (shapeCast S128x1 (multiReduction .add [1] S128 (masked arg0 v27 v43 v44) 0x00000000#32 Facts₀.reduces_S128x6144_S128 (.inl rfl) rfl) Facts₀.shapeCasts_S128_S128x1)
              (broadcast S128x1 (Scalar.ofBits .f32 0x322BCC77#32)))
            Facts₀.broadcasts_S128x1_S128x6144) := rfl

/-- A masked entry at (r, j) of the block of grid point t: zero when 128·t + r = j. -/
theorem masked_at (t : Fin 48) (v27 v43 v44 : FVec Ideal S128x6144 .f32) (r : Fin 128) (j : Fin 6144) :
    masked (BitVec.ofNat 32 t.val) v27 v43 v44 (ix2 r j)
      = if t.val * 128 + r.val = j.val then zero32
        else min (v44 (ix2 r j)) (v43 (ix2 r j)) * Ideal.exp (v27 (ix2 r j) * ((-1 / 12 : ℝ) : EReal)) := by
  have hrow : broadcastTo S128x6144 (addi (broadcast S128x1 (Scalar.muli (BitVec.ofNat 32 t.val) 128#32)) (iota .tc S128x1 32 [0] Facts₀.iota_S128x1_d0_w32)) Facts₀.broadcasts_S128x1_S128x6144 (ix2 r j)
      = BitVec.ofNat 32 (t.val * 128 + r.val) := by
    refine (broadcastTo_a1_ab_apply _ _ r j).trans ?_
    show IntOp.addi (Scalar.muli (BitVec.ofNat 32 t.val) 128#32) (iota .tc S128x1 32 [0] Facts₀.iota_S128x1_d0_w32 (ix2 r 0)) = _
    rw [iota_single_apply]
    show BitVec.ofNat 32 t.val * BitVec.ofNat 32 128 + BitVec.ofNat 32 r.val = _
    rw [← BitVec.ofNat_mul, ← BitVec.ofNat_add]
  have hcol : broadcastTo S128x6144 (iota .tc S1x6144 32 [1] Facts₀.iota_S1x6144_d1_w32) Facts₀.broadcasts_S1x6144_S128x6144 (ix2 r j)
      = BitVec.ofNat 32 j.val := by
    refine (broadcastTo_1b_ab_apply _ _ r j).trans ?_
    rw [iota_single_apply]
  unfold masked
  show Scalar.select (IntOp.cmpi .eq _ _) zero32 (min (v44 (ix2 r j)) (v43 (ix2 r j)) * Ideal.exp (v27 (ix2 r j) * Named.named (F := Ideal) κ "neg_inv_12" (φ := .f32) 0xBDAAAAAB#32)) = _
  rw [hrow, hcol, scale_eq, cmpi_eq_ofNat _ _ (by have := t.isLt; have := r.isLt; omega) (by have := j.isLt; omega), select_ite]

/-- The stored K block at (r, j): the masked entry over its row's sum plus the guard. -/
theorem pay1_at (arg0 : BitVec 32) (v27 v43 v44 : FVec Ideal S128x6144 .f32) (r : Fin 128) (j : Fin 6144) :
    k0_pay1 arg0 v27 v43 v44 (ix2 r j)
      = Ideal.div (masked arg0 v27 v43 v44 (ix2 r j)) ((∑ k : Fin 6144, masked arg0 v27 v43 v44 (ix2 r k)) + lo) := by
  rw [pay1_eq]
  show Ideal.div _ (broadcastTo S128x6144 _ Facts₀.broadcasts_S128x1_S128x6144 (ix2 r j)) = _
  rw [broadcastTo_a1_ab_apply]
  show Ideal.div _ (shapeCast S128x1 _ Facts₀.shapeCasts_S128_S128x1 (ix2 r 0) + lo) = _
  rw [shapeCast_a_a1_apply]
  refine congrArg (fun s => Ideal.div _ (s + lo)) ?_
  exact rowSum_apply (a := 128) (b := 6144) (masked arg0 v27 v43 v44) 0x00000000#32 Facts₀.reduces_S128x6144_S128 (.inl rfl) rfl r

/-! ### The matrix product -/

/-- The body's contraction: [128, 6144] · [6144, 512], the second axis against the first. -/
abbrev dotK := dot_S128x6144_S6144x512_S128x512_1_0_0_1_n_n

theorem lhs_row (i : S128x512.Idx) (q : dotK.contr.Idx) : (dotK.lhsIdx i q 0).val = (i 0).val := by
  unfold DotDims.lhsIdx
  rw [dif_neg (show ¬(0 : Fin S128x6144.rank) ∈ dotK.lhsBatch by decide), dif_pos (show (0 : Fin S128x6144.rank) ∈ dotK.lhsNonContracting by decide)]
  rfl
theorem lhs_col (i : S128x512.Idx) (q : dotK.contr.Idx) : (dotK.lhsIdx i q 1).val = (q ⟨0, by decide⟩).val :=
  dotK.lhsIdx_val_of_single rfl i q
theorem rhs_row (i : S128x512.Idx) (q : dotK.contr.Idx) : (dotK.rhsIdx i q 0).val = (q ⟨0, by decide⟩).val :=
  dotK.rhsIdx_val_of_single rfl i q
theorem rhs_col (i : S128x512.Idx) (q : dotK.contr.Idx) : (dotK.rhsIdx i q 1).val = (i 1).val := by
  unfold DotDims.rhsIdx
  rw [dif_neg (show ¬(1 : Fin S6144x512.rank) ∈ dotK.rhsBatch by decide), dif_pos (show (1 : Fin S6144x512.rank) ∈ dotK.rhsNonContracting by decide)]
  rfl

/-- The product into a zero accumulator, at (r, d): the sum over the 6144 columns k of lhs (r, k) · rhs (k, d). -/
theorem matmul_at {φ₁ φ₂ : FTy} (lhs : FVec Ideal S128x6144 φ₁) (rhs : FVec Ideal S6144x512 φ₂) (r : Fin 128) (d : Fin 512) :
    matmul dotK none lhs rhs (constant S128x512 .f32 0x00000000#32) (ix2 r d)
      = ∑ k : Fin 6144, lhs (ix2 r k) * rhs (ix2 k d) := by
  show FloatOps.matmul dotK none lhs rhs (constant S128x512 .f32 0x00000000#32) (ix2 r d) = _
  rw [Ideal.matmul_constant_zero_apply, ← Equiv.sum_comp (ValueIdx.contrEquiv1 dotK 6144 rfl rfl).symm]
  refine Finset.sum_congr rfl fun k _ => ?_
  have hk := ValueIdx.contrEquiv1_symm_val dotK 6144 rfl rfl k
  have el : dotK.lhsIdx (ix2 r d) ((ValueIdx.contrEquiv1 dotK 6144 rfl rfl).symm k) = ix2 r k := funext fun a => Fin.ext (by
    match a with
    | ⟨0, _⟩ => exact lhs_row _ _
    | ⟨1, _⟩ => exact (lhs_col _ _).trans hk)
  have er : dotK.rhsIdx (ix2 r d) ((ValueIdx.contrEquiv1 dotK 6144 rfl rfl).symm k) = ix2 k d := funext fun a => Fin.ext (by
    match a with
    | ⟨0, _⟩ => exact (rhs_row _ _).trans hk
    | ⟨1, _⟩ => exact rhs_col _ _)
  rw [el, er]

/-- The stored product block at (r, d): the K block's row r against column d of the loaded matrix. -/
theorem pay2_at (arg0 : BitVec 32) (v27 v43 v44 : FVec Ideal S128x6144 .f32) (x4 : Vec Ideal S6144x512 .bf16)
    (r : Fin 128) (d : Fin 512) :
    k0_pay2 arg0 v27 v43 v44 x4 (ix2 r d) = ∑ k : Fin 6144, k0_pay1 arg0 v27 v43 v44 (ix2 r k) * x4 (ix2 k d) := by
  unfold k0_pay2
  rw [shapeCast_self]
  exact matmul_at _ _ r d

/-! ### The block of grid point t against the specification -/

/-- The global row of row r of block t. -/
def row (t : Fin 48) (r : Fin 128) : Fin 6144 := ⟨t.val * 128 + r.val, by have := t.isLt; have := r.isLt; omega⟩

section Against
variable (c : Coords) (α : Alpha) (t : Fin 48)
  (x0 : Vec Ideal S128x3 .f32) (x1 : Vec Ideal S3x6144 .f32) (x2 : Vec Ideal S128x1 .f32) (x3 : Vec Ideal S1x6144 .f32)
  (h0 : ∀ (r : Fin 128) (k : Fin 3), x0 (ix2 r k) = c (ix2 (row t r) k))
  (h1 : ∀ (k : Fin 3) (j : Fin 6144), x1 (ix2 k j) = c (ix2 j k))
  (h2 : ∀ r : Fin 128, x2 (ix2 r 0) = α (ix1 (row t r)))
  (h3 : ∀ j : Fin 6144, x3 (ix2 0 j) = α (ix1 j))
include h0 h1 h2 h3

/-- When the loaded blocks are rows 128·t… of the coordinates and exponents (and all of the transposed
    coordinates and of the exponents' row), a masked entry of the block is the specification's entry of the
    global row. -/
theorem masked_entry (r : Fin 128) (j : Fin 6144) :
    masked (BitVec.ofNat 32 t.val) (k0_pay3 x0 x1) (k0_pay4 x0 x1 x2 x3) (k0_pay5 (F := Ideal)) (ix2 r j)
      = entry c α (row t r) j := by
  rw [masked_at]
  unfold entry
  have hiff : (t.val * 128 + r.val = j.val) ↔ (row t r = j) := by rw [Fin.ext_iff]; rfl
  refine if_congr hiff rfl ?_
  rw [clip_block, dist_block, h0, h0, h0, h1, h1, h1, h2, h3]
  rfl

/-- The stored K block is the specification's K on the block's rows. -/
theorem kblock_at (r : Fin 128) (j : Fin 6144) :
    k0_pay1 (BitVec.ofNat 32 t.val) (k0_pay3 x0 x1) (k0_pay4 x0 x1 x2 x3) (k0_pay5 (F := Ideal)) (ix2 r j)
      = kn c α (row t r) j := by
  rw [pay1_at, masked_entry c α t x0 x1 x2 x3 h0 h1 h2 h3]
  unfold kn
  exact congrArg (fun s => Ideal.div _ (s + lo))
    (Finset.sum_congr rfl fun k _ => masked_entry c α t x0 x1 x2 x3 h0 h1 h2 h3 r k)

/-- The stored product block is the specification's K · latent on the block's rows. -/
theorem outblock_at (L : Latent) (x4 : Vec Ideal S6144x512 .bf16) (h4 : ∀ (k : Fin 6144) (d : Fin 512), x4 (ix2 k d) = L (ix2 k d))
    (r : Fin 128) (d : Fin 512) :
    k0_pay2 (BitVec.ofNat 32 t.val) (k0_pay3 x0 x1) (k0_pay4 x0 x1 x2 x3) (k0_pay5 (F := Ideal)) x4 (ix2 r d)
      = outAt L c α (row t r) d := by
  rw [pay2_at]
  unfold outAt
  exact Finset.sum_congr rfl fun k _ => by rw [kblock_at c α t x0 x1 x2 x3 h0 h1 h2 h3 r k, h4]

end Against

end Cert.Diffusion.Block

end
-- ==== Proof.EntryArrays.lean ====
import proofs.«148434_j5634997092631_1_alg».proof.Proof.FrameKernelIdeal
import proofs.«148434_j5634997092631_1_alg».proof.Proof.LibKeepdims
import Idealize.ShloMosaic.Lib.Pipeline.Value
import Idealize.ShloMosaic.Lib.ValueIdx
import Idealize.ShloMosaic.Lib.ValueLayout
import Idealize.ShloMosaic.Lib.StableHlo.Run

noncomputable section

namespace Cert.Diffusion.Entry

open Idealize.ShloMosaic Idealize.ShloMosaic.ValueIdx Idealize.ShloMosaic.TcCoe Idealize.SL.Sem
open Cert.KernelIdeal Cert.KernelIdeal.Gen Cert.KernelIdeal.GenP

variable [Cert.KernelIdeal.Facts] (m : (ℓ : Loc nD τ sig) → Buf (Elt Ideal) ℓ) (c : Dev nD)

/-- The coordinates transposed before the region: entry `(k, j)` of the `[3, 6144]` array is coordinate `k` of point `j`. -/
theorem coordsT_at (k : Fin 3) (j : Fin 6144) : V m c main_v0 (ix2 k j) = V m c main_arg1 (ix2 j k) := by
  have e : (V m c main_v0 : S3x6144.Idx → EReal)
      = transpose S3x6144 [1, 0] (V m c main_arg1) Facts₀.transposes_S6144x3_S3x6144_1_0 := by
    dsimp only [V, hostOps0]; after_results
  exact (congrFun e (ix2 k j)).trans
    (transpose_ix2_apply (V m c main_arg1 : S6144x3.Idx → EReal) Facts₀.transposes_S6144x3_S3x6144_1_0 k j)

/-- The exponents as a column: entry `(i, u)` of the `[6144, 1]` array is the exponent of point `i`. -/
theorem alphaCol_at (i : Fin 6144) (u : Fin 1) : V m c main_v1 (ix2 i u) = V m c main_arg2 (ix1 i) := by
  have e : (V m c main_v1 : S6144x1.Idx → EReal)
      = shapeCast S6144x1 (V m c main_arg2) Facts₀.shapeCasts_S6144_S6144x1 := by
    dsimp only [V, hostOps0]; after_results; rfl
  exact (congrFun e (ix2 i u)).trans
    (Cert.Lib.Keepdims.shapeCast_a_a1_apply (V m c main_arg2 : S6144.Idx → EReal) Facts₀.shapeCasts_S6144_S6144x1 i u)

/-- The exponents as a row: entry `(u, j)` of the `[1, 6144]` array is the exponent of point `j`. -/
theorem alphaRow_at (u : Fin 1) (j : Fin 6144) : V m c main_v2 (ix2 u j) = V m c main_arg2 (ix1 j) := by
  have e : (V m c main_v2 : S1x6144.Idx → EReal)
      = shapeCast S1x6144 (V m c main_arg2) Facts₀.shapeCasts_S6144_S1x6144 := by
    dsimp only [V, hostOps0]; after_results; rfl
  exact (congrFun e (ix2 u j)).trans
    (shapeCast_a_1a_apply (V m c main_arg2 : S6144.Idx → EReal) Facts₀.shapeCasts_S6144_S1x6144 u j)

/-- The latent array in the narrower format: on the extended reals a change of format is the identity. -/
theorem latent_at (k : Fin 6144) (d : Fin 512) : V m c main_v3 (ix2 k d) = V m c main_arg0 (ix2 k d) := by
  have e : @Eq (S6144x512.Idx → EReal) (V m c main_v3)
      (truncf (F := Ideal) .bf16 (V m c main_arg0 : S6144x512.Idx → EReal) Facts₀.bitsLt_bf16_f32) := by
    dsimp only [V, hostOps0]; after_results
  exact congrFun e (ix2 k d)

end Cert.Diffusion.Entry
-- ==== Proof.KernelValue.lean ====
/-
  From row blocks to the two result arrays.

  Grid point t (0 ≤ t < 48) stages rows 128·t … 128·t+127 of `coords` and of the exponents' column, the whole
  transposed coordinates, the whole exponents' row and the whole (bf16) latent matrix, and writes back rows
  128·t … 128·t+127 of K and of K · latent. By the block lemmas each written block is the specification's array
  read through the block; the 48 blocks of either output tile its array (row i lies in block i / 128), so after
  the run each output array IS the specification's array of the argument arrays as launched.
-/
import proofs.«148434_j5634997092631_1_alg».proof.Proof.FrameKernelIdeal
import proofs.«148434_j5634997092631_1_alg».proof.Proof.BlockPayload
import proofs.«148434_j5634997092631_1_alg».proof.Proof.EntryArrays
import Idealize.ShloMosaic.Lib.Pipeline.Value

set_option maxRecDepth 16384

noncomputable section

namespace Cert.Diffusion.KValue

open Idealize.ShloMosaic Idealize.ShloMosaic.ValueIdx Idealize.ShloMosaic.TcCoe Idealize.SL.Sem
open Cert.KernelIdeal Cert.KernelIdeal.Gen Cert.KernelIdeal.GenP Cert.Diffusion Cert.Diffusion.Block
open Idealize.ShloMosaic.Pipeline (Dat)

variable (m : (ℓ : Loc nD τ sig) → Buf (Elt Ideal) ℓ) (ρ : Dev nD → PrngReg)

/-- K of the argument arrays as launched, as the contents of the K result's buffer. -/
def kOf (c : Dev nD) : Buf (Elt Ideal) ((c : Thread nD τ).loc main_v4_1) :=
  kArr (m ((c : Thread nD τ).loc main_arg1)) (m ((c : Thread nD τ).loc main_arg2))

/-- K · latent of the argument arrays as launched, as the contents of the product's buffer. -/
def outOf (c : Dev nD) : Buf (Elt Ideal) ((c : Thread nD τ).loc main_v4_0) :=
  outArr (m ((c : Thread nD τ).loc main_arg0)) (m ((c : Thread nD τ).loc main_arg1)) (m ((c : Thread nD τ).loc main_arg2))

theorem hz : (![0, 0] : Fin 2 → Nat) = fun _ => 0 := funext fun a => by fin_cases a <;> rfl

/-- The printed index maps over the 48 grid points: the row-blocked windows sit at block row t, column block 0;
    the whole-array windows at block (0, 0); and the grid coordinate is the point's number. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ ((grid0.coords t) 0).val = t.val :=
  (by decide +kernel : ∀ t : Fin grid0.N, _)

/-- A grid point as a number below 48. -/
def pt (t : Fin cfg0.N) : Fin 48 := ⟨t.val, by have h : t.val < grid0.N := t.isLt; rw [N_0] at h; exact h⟩

/-! ## The staged blocks, read at an index -/

/-- Row r of the coordinate block of point t is row 128·t + r of `coords`. -/
theorem read_coords (c : Dev nD) (t : Fin cfg0.N) (r : Fin 128) (k : Fin 3) :
    iblk m c 0 t (ix2 r k) = m ((c : Thread nD τ).loc main_arg1) (ix2 (row (pt t) r) k) := by
  obtain ⟨e00, e01, -⟩ := idx_facts t
  show V m c main_arg1 (((cfg0.win 0).blk t).view.emb (ix2 r k)) = _
  rw [V_main_arg1]
  refine congrArg _ (funext fun a => Fin.ext ?_)
  match a with
  | ⟨0, _⟩ => show win0_0.index t (0 : Fin 2) * 128 + 1 * r.val = t.val * 128 + r.val; rw [e00]; omega
  | ⟨1, _⟩ => show win0_0.index t (1 : Fin 2) * 3 + 1 * k.val = k.val; rw [e01]; omega

/-- The staged transposed coordinates are all of `coordsᵀ`: entry (k, j) is coordinate k of point j. -/
theorem read_coordsT (c : Dev nD) (t : Fin cfg0.N) (k : Fin 3) (j : Fin 6144) :
    iblk m c 1 t (ix2 k j) = m ((c : Thread nD τ).loc main_arg1) (ix2 j k) := by
  obtain ⟨-, -, e10, e11, -⟩ := idx_facts t
  show V m c main_v0 (((cfg0.win 1).blk t).view.emb (ix2 k j)) = _
  have he : ((cfg0.win 1).blk t).view.emb (ix2 k j) = ix2 k j := funext fun a => Fin.ext (by
    match a with
    | ⟨0, _⟩ => show win0_1.index t (0 : Fin 2) * 3 + 1 * k.val = k.val; rw [e10]; omega
    | ⟨1, _⟩ => show win0_1.index t (1 : Fin 2) * 6144 + 1 * j.val = j.val; rw [e11]; omega)
  rw [he, Cert.Diffusion.Entry.coordsT_at, V_main_arg1]

/-- Row r of the exponents' column block of point t is exponent 128·t + r. -/
theorem read_alphaCol (c : Dev nD) (t : Fin cfg0.N) (r : Fin 128) :
    iblk m c 2 t (ix2 r 0) = m ((c : Thread nD τ).loc main_arg2) (ix1 (row (pt t) r)) := by
  obtain ⟨-, -, -, -, e20, e21, -⟩ := idx_facts t
  show V m c main_v1 (((cfg0.win 2).blk t).view.emb (ix2 r (0 : Fin 1))) = _
  have he : ((cfg0.win 2).blk t).view.emb (ix2 r (0 : Fin 1)) = ix2 (row (pt t) r) (0 : Fin 1) := funext fun a => Fin.ext (by
    match a with
    | ⟨0, _⟩ => show win0_2.index t (0 : Fin 2) * 128 + 1 * r.val = t.val * 128 + r.val; rw [e20]; omega
    | ⟨1, _⟩ => show win0_2.index t (1 : Fin 2) * 1 + 1 * 0 = 0; rw [e21])
  rw [he, Cert.Diffusion.Entry.alphaCol_at, V_main_arg2]

/-- The staged exponents' row is all of the exponents. -/
theorem read_alphaRow (c : Dev nD) (t : Fin cfg0.N) (j : Fin 6144) :
    iblk m c 3 t (ix2 0 j) = m ((c : Thread nD τ).loc main_arg2) (ix1 j) := by
  obtain ⟨-, -, -, -, -, -, e30, e31, -⟩ := idx_facts t
  show V m c main_v2 (((cfg0.win 3).blk t).view.emb (ix2 (0 : Fin 1) j)) = _
  have he : ((cfg0.win 3).blk t).view.emb (ix2 (0 : Fin 1) j) = ix2 (0 : Fin 1) j := funext fun a => Fin.ext (by
    match a with
    | ⟨0, _⟩ => show win0_3.index t (0 : Fin 2) * 1 + 1 * 0 = 0; rw [e30]
    | ⟨1, _⟩ => show win0_3.index t (1 : Fin 2) * 6144 + 1 * j.val = j.val; rw [e31]; omega)
  rw [he, Cert.Diffusion.Entry.alphaRow_at, V_main_arg2]

/-- The staged matrix is all of `latent` (its change of format is the identity on the extended reals). -/
theorem read_latent (c : Dev nD) (t : Fin cfg0.N) (k : Fin 6144) (d : Fin 512) :
    iblk m c 4 t (ix2 k d) = m ((c : Thread nD τ).loc main_arg0) (ix2 k d) := by
  obtain ⟨-, -, -, -, -, -, -, -, e40, e41, -⟩ := idx_facts t
  show V m c main_v3 (((cfg0.win 4).blk t).view.emb (ix2 k d)) = _
  have he : ((cfg0.win 4).blk t).view.emb (ix2 k d) = ix2 k d := funext fun a => Fin.ext (by
    match a with
    | ⟨0, _⟩ => show win0_4.index t (0 : Fin 2) * 6144 + 1 * k.val = k.val; rw [e40]; omega
    | ⟨1, _⟩ => show win0_4.index t (1 : Fin 2) * 512 + 1 * d.val = d.val; rw [e41]; omega)
  rw [he, Cert.Diffusion.Entry.latent_at, V_main_arg0]

/-! ## What a point writes back -/

/-- Point t writes back, to K's array, the specification's K read through block t. -/
theorem flushedK_eq (c : Dev nD) (t : Fin cfg0.N) :
    (dats m 0 c).flushed 6 t = ((cfg0.win 6).blk t).view.read (Elt Ideal) (kOf m c) := by
  show (cfg0.win 6).cut (grid0.coords t) ((dats m 0 c).after 6 t) = _
  rw [after0_6]
  unfold out0_6
  rw [View.canon_unit_zero hz]
  simp only [View.ld_unit_zero (S := S128x3) hz, View.ld_unit_zero (S := S3x6144) hz, View.ld_unit_zero (S := S128x1) hz,
    View.ld_unit_zero (S := S1x6144) hz]
  obtain ⟨-, -, -, -, -, -, -, -, -, -, -, -, e60, e61, eg⟩ := idx_facts t
  refine funext fun (y : S128x6144.Idx) => ?_
  obtain ⟨r, j, rfl⟩ : ∃ (r : Fin 128) (j : Fin 6144), y = ix2 r j := ⟨y 0, y 1, eq_ix2 y⟩
  show k0_pay1 (BitVec.ofNat 32 ((grid0.coords t) 0).val) (k0_pay3 (iblk m c 0 t) (iblk m c 1 t))
      (k0_pay4 (iblk m c 0 t) (iblk m c 1 t) (iblk m c 2 t) (iblk m c 3 t)) (k0_pay5 (F := Ideal)) (ix2 r j)
    = kOf m c (((cfg0.win 6).blk t).view.emb (ix2 r j))
  rw [eg]
  refine (kblock_at (m ((c : Thread nD τ).loc main_arg1)) (m ((c : Thread nD τ).loc main_arg2)) (pt t)
    (iblk m c 0 t) (iblk m c 1 t) (iblk m c 2 t) (iblk m c 3 t)
    (read_coords m c t) (read_coordsT m c t) (read_alphaCol m c t) (read_alphaRow m c t) r j).trans ?_
  unfold kOf kArr
  refine congr (congrArg _ (Fin.ext ?_)) (Fin.ext ?_)
  · show t.val * 128 + r.val = win0_6.index t (0 : Fin 2) * 128 + 1 * r.val; rw [e60]; omega
  · show j.val = win0_6.index t (1 : Fin 2) * 6144 + 1 * j.val; rw [e61]; omega

/-- Point t writes back, to the product's array, the specification's K · latent read through block t. -/
theorem flushedOut_eq (c : Dev nD) (t : Fin cfg0.N) :
    (dats m 0 c).flushed 5 t = ((cfg0.win 5).blk t).view.read (Elt Ideal) (outOf m c) := by
  show (cfg0.win 5).cut (grid0.coords t) ((dats m 0 c).after 5 t) = _
  rw [after0_5]
  unfold out0_5
  rw [View.canon_unit_zero hz]
  simp only [View.ld_unit_zero (S := S128x3) hz, View.ld_unit_zero (S := S3x6144) hz, View.ld_unit_zero (S := S128x1) hz,
    View.ld_unit_zero (S := S1x6144) hz, View.ld_unit_zero (S := S6144x512) hz]
  obtain ⟨-, -, -, -, -, -, -, -, -, -, e50, e51, -, -, eg⟩ := idx_facts t
  refine funext fun (y : S128x512.Idx) => ?_
  obtain ⟨r, d, rfl⟩ : ∃ (r : Fin 128) (d : Fin 512), y = ix2 r d := ⟨y 0, y 1, eq_ix2 y⟩
  show k0_pay2 (BitVec.ofNat 32 ((grid0.coords t) 0).val) (k0_pay3 (iblk m c 0 t) (iblk m c 1 t))
      (k0_pay4 (iblk m c 0 t) (iblk m c 1 t) (iblk m c 2 t) (iblk m c 3 t)) (k0_pay5 (F := Ideal)) (iblk m c 4 t) (ix2 r d)
    = outOf m c (((cfg0.win 5).blk t).view.emb (ix2 r d))
  rw [eg]
  refine (outblock_at (m ((c : Thread nD τ).loc main_arg1)) (m ((c : Thread nD τ).loc main_arg2)) (pt t)
    (iblk m c 0 t) (iblk m c 1 t) (iblk m c 2 t) (iblk m c 3 t)
    (read_coords m c t) (read_coordsT m c t) (read_alphaCol m c t) (read_alphaRow m c t)
    (m ((c : Thread nD τ).loc main_arg0)) (iblk m c 4 t) (read_latent m c t) r d).trans ?_
  unfold outOf outArr
  refine congr (congrArg _ (Fin.ext ?_)) (Fin.ext ?_)
  · show t.val * 128 + r.val = win0_5.index t (0 : Fin 2) * 128 + 1 * r.val; rw [e50]; omega
  · show d.val = win0_5.index t (1 : Fin 2) * 512 + 1 * d.val; rw [e51]; omega

/-! ## The blocks tile the arrays -/

/-- An index of K's array is in block t iff its row is in rows 128·t … 128·t+127 (and its column anywhere). -/
theorem mem_blkK (t : Fin cfg0.N) (i : S6144x6144.Idx) :
    i ∈ ((cfg0.win 6).blk t).view.set ↔ ∀ a : Fin 2, win0_6.index t a * S128x6144.size a ≤ (i a).val ∧ (i a).val < win0_6.index t a * S128x6144.size a + S128x6144.size a := by
  show i ∈ ((View.whole main_v4_1).slice (win0_6.rect t)).set ↔ _
  rw [View.set_slice_whole, Rect.mem_set_unit]
  exact Iff.rfl

theorem mem_blkOut (t : Fin cfg0.N) (i : S6144x512.Idx) :
    i ∈ ((cfg0.win 5).blk t).view.set ↔ ∀ a : Fin 2, win0_5.index t a * S128x512.size a ≤ (i a).val ∧ (i a).val < win0_5.index t a * S128x512.size a + S128x512.size a := by
  show i ∈ ((View.whole main_v4_0).slice (win0_5.rect t)).set ↔ _
  rw [View.set_slice_whole, Rect.mem_set_unit]
  exact Iff.rfl

/-- The point whose block holds row i: i / 128. -/
def ptOf (i : Nat) (h : i < 6144) : Fin cfg0.N := ⟨i / 128, by show i / 128 < grid0.N; rw [N_0]; omega⟩

/-- K's array after the run is the specification's K of the arguments as launched. -/
theorem finalK (c : Dev nD) : (dats m 0 c).arrAt 6 cfg0.N = kOf m c :=
  (dats m 0 c).arrAt_eq_of_cover 6 (kOf m c) (fun t _ => flushedK_eq m c t) fun (i : S6144x6144.Idx) => by
    have hi0 : (i 0).val < 6144 := (i 0).isLt
    have hi1 : (i 1).val < 6144 := (i 1).isLt
    refine ⟨ptOf (i 0).val hi0, flush0_6 _, ?_⟩
    obtain ⟨-, -, -, -, -, -, -, -, -, -, -, -, e60, e61, -⟩ := idx_facts (ptOf (i 0).val hi0)
    show i ∈ ((cfg0.win 6).blk (ptOf (i 0).val hi0)).view.set
    rw [mem_blkK]
    intro a
    match a with
    | ⟨0, _⟩ =>
      show win0_6.index (ptOf (i 0).val hi0) (0 : Fin 2) * 128 ≤ (i 0).val ∧ (i 0).val < win0_6.index (ptOf (i 0).val hi0) (0 : Fin 2) * 128 + 128
      rw [e60]; show (i 0).val / 128 * 128 ≤ (i 0).val ∧ (i 0).val < (i 0).val / 128 * 128 + 128; omega
    | ⟨1, _⟩ =>
      show win0_6.index (ptOf (i 0).val hi0) (1 : Fin 2) * 6144 ≤ (i 1).val ∧ (i 1).val < win0_6.index (ptOf (i 0).val hi0) (1 : Fin 2) * 6144 + 6144
      rw [e61]; omega

/-- The product's array after the run is the specification's K · latent of the arguments as launched. -/
theorem finalOut (c : Dev nD) : (dats m 0 c).arrAt 5 cfg0.N = outOf m c :=
  (dats m 0 c).arrAt_eq_of_cover 5 (outOf m c) (fun t _ => flushedOut_eq m c t) fun (i : S6144x512.Idx) => by
    have hi0 : (i 0).val < 6144 := (i 0).isLt
    have hi1 : (i 1).val < 512 := (i 1).isLt
    refine ⟨ptOf (i 0).val hi0, flush0_5 _, ?_⟩
    obtain ⟨-, -, -, -, -, -, -, -, -, -, e50, e51, -⟩ := idx_facts (ptOf (i 0).val hi0)
    show i ∈ ((cfg0.win 5).blk (ptOf (i 0).val hi0)).view.set
    rw [mem_blkOut]
    intro a
    match a with
    | ⟨0, _⟩ =>
      show win0_5.index (ptOf (i 0).val hi0) (0 : Fin 2) * 128 ≤ (i 0).val ∧ (i 0).val < win0_5.index (ptOf (i 0).val hi0) (0 : Fin 2) * 128 + 128
      rw [e50]; show (i 0).val / 128 * 128 ≤ (i 0).val ∧ (i 0).val < (i 0).val / 128 * 128 + 128; omega
    | ⟨1, _⟩ =>
      show win0_5.index (ptOf (i 0).val hi0) (1 : Fin 2) * 512 ≤ (i 1).val ∧ (i 1).val < win0_5.index (ptOf (i 0).val hi0) (1 : Fin 2) * 512 + 512
      rw [e51]; omega

/-! ## The run, read -/

/-- Every weakly fair execution of the kernel's program terminates with the two result arrays at the
    specification's arrays of the arguments as launched, and the arguments unchanged. -/
theorem run : θ_run defs (onTc (τ := τ) (main (F := Ideal))) ⟨m, fun _ => 0, ρ⟩ fun r => ∀ c : Dev nD,
      r.2.mem ((c : Thread nD τ).loc main_v4_0) = outOf m c
      ∧ r.2.mem ((c : Thread nD τ).loc main_v4_1) = kOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 5).trans (finalOut m c), ((h c).1 6).trans (finalK m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c)⟩)
    (run_main m ρ)

end Cert.Diffusion.KValue

end
-- ==== Proof.RefValue.lean ====
import proofs.«148434_j5634997092631_1_alg».proof.Proof.Gen.ReferenceIdeal.Read
import proofs.«148434_j5634997092631_1_alg».proof.Proof.Spec
import Idealize.ShloMosaic.Lib.ValueIdx
import Idealize.ShloMosaic.PureOps.Ideal.Laws

noncomputable section

namespace Cert.Diffusion.Ref

open Cert.ReferenceIdeal Cert.ReferenceIdeal.Read Idealize.ShloMosaic Idealize.ShloMosaic.ValueIdx
open scoped BigOperators

/-- The coordinate array as the reference program types it. -/
abbrev X1 : Type := (⟨Cert.ReferenceIdeal.S6144x3, .f32⟩ : BufTy).Contents (Elt Ideal)
/-- The exponent array as the reference program types it. -/
abbrev X2 : Type := (⟨Cert.ReferenceIdeal.S6144, .f32⟩ : BufTy).Contents (Elt Ideal)
/-- The latent array as the reference program types it. -/
abbrev X0 : Type := (⟨Cert.ReferenceIdeal.S6144x512, .f32⟩ : BufTy).Contents (Elt Ideal)

/-! ## The distance stage -/

/-- Row `a`'s squared norm: the sum, started from 0, of the three squared coordinates. -/
theorem sumsq_at (x1 : X1) (a : Fin 6144) :
    val_main_v1 (F := Ideal) x1 (ix1 a)
      = zero32 + ((x1 (ix2 a 0) * x1 (ix2 a 0) + x1 (ix2 a 1) * x1 (ix2 a 1)) + x1 (ix2 a 2) * x1 (ix2 a 2)) := by
  have e : ∀ k : Fin 3, idx_main_v1 (ix1 a) k = ix2 a k := fun k =>
    funext fun d => Fin.ext (by match d with | ⟨0, _⟩ => rfl | ⟨1, _⟩ => rfl)
  rw [val_main_v1_apply, Fin.sum_univ_three, val_main_cst_apply]
  simp only [val_main_v0_apply, e]
  rfl

/-- The squared norms broadcast along the columns: entry `(a, b)` reads row `a`'s. -/
theorem rownorm_at (x1 : X1) (a b : Fin 6144) :
    val_main_v4 (F := Ideal) x1 (ix2 a b) = val_main_v1 (F := Ideal) x1 (ix1 a) := by
  rw [val_main_v4_apply, val_main_v2_apply]
  exact congrArg _ (funext fun d => Fin.ext (by match d with | ⟨0, _⟩ => rfl))

/-- The squared norms broadcast along the rows: entry `(a, b)` reads row `b`'s. -/
theorem colnorm_at (x1 : X1) (a b : Fin 6144) :
    val_main_v5 (F := Ideal) x1 (ix2 a b) = val_main_v1 (F := Ideal) x1 (ix1 b) := by
  rw [val_main_v5_apply, val_main_v3_apply]
  exact congrArg _ (funext fun d => Fin.ext (by match d with | ⟨0, _⟩ => rfl))

/-- The Gram matrix: entry `(a, b)` is the inner product of rows `a` and `b`. -/
theorem gram_at (x1 : X1) (a b : Fin 6144) :
    val_main_v8 (F := Ideal) x1 (ix2 a b)
      = (x1 (ix2 a 0) * x1 (ix2 b 0) + x1 (ix2 a 1) * x1 (ix2 b 1)) + x1 (ix2 a 2) * x1 (ix2 b 2) := by
  have el : ∀ k : Fin 3, lidx_main_v8 (ix2 a b) k = ix2 a k := fun k =>
    funext fun d => Fin.ext (by match d with | ⟨0, _⟩ => rfl | ⟨1, _⟩ => rfl)
  have er : ∀ k : Fin 3, idx_main_v7 (ridx_main_v8 (ix2 a b) k) = ix2 b k := fun k =>
    funext fun d => Fin.ext (by match d with | ⟨0, _⟩ => rfl | ⟨1, _⟩ => rfl)
  rw [val_main_v8_apply, Fin.sum_univ_three]
  simp only [val_main_v7_apply, el, er]

/-- |c_a|² + |c_b|² − 2⟨c_a, c_b⟩ is the sum of the three squared differences, for real coordinates. -/
theorem sq_at (x1 : X1) (hc : ∀ p, ∃ r : ℝ, x1 p = (r : EReal)) (a b : Fin 6144) :
    val_main_v11 (F := Ideal) x1 (ix2 a b)
      = ((x1 (ix2 a 0) - x1 (ix2 b 0)) * (x1 (ix2 a 0) - x1 (ix2 b 0))
          + (x1 (ix2 a 1) - x1 (ix2 b 1)) * (x1 (ix2 a 1) - x1 (ix2 b 1)))
        + (x1 (ix2 a 2) - x1 (ix2 b 2)) * (x1 (ix2 a 2) - x1 (ix2 b 2)) := by
  obtain ⟨a0, ha0⟩ := hc (ix2 a 0)
  obtain ⟨a1, ha1⟩ := hc (ix2 a 1)
  obtain ⟨a2, ha2⟩ := hc (ix2 a 2)
  obtain ⟨b0, hb0⟩ := hc (ix2 b 0)
  obtain ⟨b1, hb1⟩ := hc (ix2 b 1)
  obtain ⟨b2, hb2⟩ := hc (ix2 b 2)
  rw [val_main_v11_apply, val_main_v6_apply, val_main_v10_apply, val_main_v9_apply, val_main_cst_0_apply,
    rownorm_at, colnorm_at, sumsq_at, sumsq_at, gram_at, ha0, ha1, ha2, hb0, hb1, hb2]
  simp only [Ideal.addf_def, Ideal.subf_def, Ideal.mulf_def, Ideal.ofBits_def, zero32_eq, two_eq]
  exact sqdist_eq a0 a1 a2 b0 b1 b2

/-- The guarded distance: entry `(a, b)` of the distance array is D_ab. -/
theorem dist_at (x1 : X1) (hc : ∀ p, ∃ r : ℝ, x1 p = (r : EReal)) (a b : Fin 6144) :
    val_main_v16 (F := Ideal) x1 (ix2 a b) = Cert.Diffusion.distAt x1 a b := by
  rw [val_main_v16_apply, val_main_v14_apply, val_main_v13_apply, val_main_v12_apply, val_main_cst_1_apply,
    val_main_v15_apply, val_main_cst_2_apply, sq_at x1 hc]
  rfl

/-! ## The unnormalised entry -/

/-- The factor 1 − δ_ab: the two iotas are the coordinates' 32-bit words, compared for equality. -/
theorem mask_at (a b : Fin 6144) :
    val_main_v39 (F := Ideal) (ix2 a b)
      = (1 : EReal) - (((if a.val = b.val then 1#1 else 0#1 : BitVec 1).toNat : ℝ) : EReal) := by
  rw [val_main_v39_apply, val_main_v38_apply, val_main_cst_7_apply, val_main_v37_apply, val_main_v36_apply,
    val_main_v35_apply, val_main_v32_apply, val_main_v33_apply, val_main_v34_apply, val_main_c_apply]
  have hadd : IntOp.addi (BitVec.ofNat 32 a.val) (0#32) = BitVec.ofNat 32 a.val := by
    unfold IntOp.addi; exact BitVec.add_zero _
  have ha := a.isLt
  have hb := b.isLt
  change Ideal.ofBits .f32 0x3F800000#32
      - (((IntOp.cmpi .eq (IntOp.addi (BitVec.ofNat 32 a.val) (0#32)) (BitVec.ofNat 32 b.val)).toNat : ℝ) : EReal) = _
  rw [hadd, cmpi_eq_ofNat a.val b.val (by omega) (by omega), one_eq]

/-- The exponent −½(α_a + α_b). -/
theorem expo_at (x2 : X2) (a b : Fin 6144) :
    val_main_v24 (F := Ideal) x2 (ix2 a b) = -(half * (x2 (ix1 a) + x2 (ix1 b))) := by
  have ea : idx_main_v17 (idx_main_v19 (ix2 a b)) = ix1 a :=
    funext fun d => Fin.ext (by match d with | ⟨0, _⟩ => rfl)
  have eb : idx_main_v18 (idx_main_v20 (ix2 a b)) = ix1 b :=
    funext fun d => Fin.ext (by match d with | ⟨0, _⟩ => rfl)
  rw [val_main_v24_apply, val_main_v23_apply, val_main_v22_apply, val_main_cst_3_apply, val_main_v21_apply,
    val_main_v19_apply, val_main_v17_apply, val_main_v20_apply, val_main_v18_apply, ea, eb]
  rfl

/-- For real coordinates D_ab is a positive real. -/
theorem distAt_pos (x1 : X1) (hc : ∀ p, ∃ r : ℝ, x1 p = (r : EReal)) (a b : Fin 6144) :
    ∃ D : ℝ, 0 < D ∧ Cert.Diffusion.distAt x1 a b = (D : EReal) := by
  obtain ⟨a0, ha0⟩ := hc (ix2 a 0)
  obtain ⟨a1, ha1⟩ := hc (ix2 a 1)
  obtain ⟨a2, ha2⟩ := hc (ix2 a 2)
  obtain ⟨b0, hb0⟩ := hc (ix2 b 0)
  obtain ⟨b1, hb1⟩ := hc (ix2 b 1)
  obtain ⟨b2, hb2⟩ := hc (ix2 b 2)
  obtain ⟨e1, he1, hE1⟩ := eps1_pos
  obtain ⟨e2, he2, hE2⟩ := eps2_pos
  unfold distAt dist
  rw [ha0, ha1, ha2, hb0, hb1, hb2, hE1, hE2, ← EReal.coe_sub, ← EReal.coe_sub, ← EReal.coe_sub,
    ← EReal.coe_mul, ← EReal.coe_mul, ← EReal.coe_mul, ← EReal.coe_add, ← EReal.coe_add]
  exact guarded_pos _ e1 e2 he1 he2

/-- Off the diagonal: the clipped power D^(−½(α_a + α_b)) times exp(−D / 12) is the specification's weight,
    for real coordinates (so that D is a positive real) and real exponents. -/
theorem weight_at (x1 : X1) (x2 : X2) (hc : ∀ p, ∃ r : ℝ, x1 p = (r : EReal))
    (hα : ∀ p, ∃ r : ℝ, x2 p = (r : EReal)) (a b : Fin 6144) :
    val_main_v31 (F := Ideal) x1 x2 (ix2 a b)
      = Cert.Diffusion.weight (Cert.Diffusion.distAt x1 a b) (x2 (ix1 a)) (x2 (ix1 b)) := by
  rw [val_main_v31_apply, val_main_v26_apply, val_main_call0_v4_apply, val_main_call0_v3_apply, val_main_cst_5_apply,
    val_main_call0_v2_apply, val_main_call0_v1_apply, val_main_call0_v0_apply, val_main_cst_4_apply,
    val_main_v25_apply, val_main_v30_apply, val_main_v29_apply, val_main_v27_apply, val_main_v28_apply,
    val_main_cst_6_apply, dist_at x1 hc, expo_at]
  obtain ⟨D, hD, hDe⟩ := distAt_pos x1 hc a b
  obtain ⟨h, hh⟩ := half_real
  obtain ⟨x, hx⟩ := hα (ix1 a)
  obtain ⟨y, hy⟩ := hα (ix1 b)
  unfold weight
  rw [hDe, hx, hy, hh]
  simp only [Ideal.minimumf_def, Ideal.maximumf_def, Ideal.mulf_def, Ideal.ofBits_def, Ideal.hostPowf_def,
    Ideal.hostNegf_def, Ideal.negf_def, Ideal.hostUnary_exp_def, Ideal.hostDivf_def]
  rw [twelve_eq, div12_eq, ← EReal.coe_add, ← EReal.coe_mul, pow_eq_exp_log D _ hD, zero32_eq]

/-- w_ab with the diagonal zeroed by the factor 1 − δ_ab. -/
theorem entry_at (x1 : X1) (x2 : X2) (hc : ∀ p, ∃ r : ℝ, x1 p = (r : EReal))
    (hα : ∀ p, ∃ r : ℝ, x2 p = (r : EReal)) (a b : Fin 6144) :
    val_main_v40 (F := Ideal) x1 x2 (ix2 a b) = Cert.Diffusion.entry x1 x2 a b := by
  rw [val_main_v40_apply, weight_at x1 x2 hc hα, mask_at]
  change _ * _ = _
  rw [mask_mul]
  unfold entry
  by_cases h : a = b
  · rw [if_pos h, if_pos (congrArg Fin.val h), zero32_eq]
  · rw [if_neg h, if_neg (fun e => h (Fin.ext e))]

/-! ## The normalised rows and the product with the latent array -/

/-- Row `a`'s sum, started from 0. -/
theorem rowsum_at (x1 : X1) (x2 : X2) (hc : ∀ p, ∃ r : ℝ, x1 p = (r : EReal))
    (hα : ∀ p, ∃ r : ℝ, x2 p = (r : EReal)) (a : Fin 6144) :
    val_main_v41 (F := Ideal) x1 x2 (ix1 a) = ∑ k : Fin 6144, Cert.Diffusion.entry x1 x2 a k := by
  have e : ∀ k : Fin 6144, idx_main_v41 (ix1 a) k = ix2 a k := fun k =>
    funext fun d => Fin.ext (by match d with | ⟨0, _⟩ => rfl | ⟨1, _⟩ => rfl)
  rw [val_main_v41_apply, val_main_cst_8_apply]
  simp only [e, entry_at x1 x2 hc hα]
  change Ideal.ofBits .f32 0x00000000#32 + _ = _
  rw [Ideal.ofBits_zero_f32, zero_add]

/-- K_ab: the entry over its row's sum plus the guard. -/
theorem kn_at (x1 : X1) (x2 : X2) (hc : ∀ p, ∃ r : ℝ, x1 p = (r : EReal))
    (hα : ∀ p, ∃ r : ℝ, x2 p = (r : EReal)) (a b : Fin 6144) :
    val_main_v46 (F := Ideal) x1 x2 (ix2 a b) = Cert.Diffusion.kn x1 x2 a b := by
  have e : idx_main_v42 (idx_main_v45 (ix2 a b)) = ix1 a :=
    funext fun d => Fin.ext (by match d with | ⟨0, _⟩ => rfl)
  rw [val_main_v46_apply, val_main_v45_apply, val_main_v44_apply, val_main_v42_apply, val_main_v43_apply,
    val_main_cst_9_apply, entry_at x1 x2 hc hα, e, rowsum_at x1 x2 hc hα]
  rfl

/-- The reference's normalised array is the specification's K. -/
theorem kstage_eq [Cert.ReferenceIdeal.Facts] (x1 : (⟨Cert.ReferenceIdeal.S6144x3, .f32⟩ : BufTy).Contents (Elt Ideal))
    (x2 : (⟨Cert.ReferenceIdeal.S6144, .f32⟩ : BufTy).Contents (Elt Ideal))
    (hc : ∀ p, ∃ r : ℝ, x1 p = (r : EReal)) (hα : ∀ p, ∃ r : ℝ, x2 p = (r : EReal)) :
    val_main_v46 (F := Ideal) x1 x2 = Cert.Diffusion.kArr x1 x2 := by
  funext p
  obtain ⟨a, b, rfl⟩ : ∃ (a b : Fin 6144), p = ix2 a b := ⟨p 0, p 1, eq_ix2 p⟩
  rw [kn_at x1 x2 hc hα]
  rfl

/-- The reference's result is the specification's K · latent. -/
theorem outstage_eq [Cert.ReferenceIdeal.Facts] (x0 : (⟨Cert.ReferenceIdeal.S6144x512, .f32⟩ : BufTy).Contents (Elt Ideal))
    (x1 : (⟨Cert.ReferenceIdeal.S6144x3, .f32⟩ : BufTy).Contents (Elt Ideal))
    (x2 : (⟨Cert.ReferenceIdeal.S6144, .f32⟩ : BufTy).Contents (Elt Ideal))
    (hc : ∀ p, ∃ r : ℝ, x1 p = (r : EReal)) (hα : ∀ p, ∃ r : ℝ, x2 p = (r : EReal)) :
    val_main_v47 (F := Ideal) x0 x1 x2 = Cert.Diffusion.outArr x0 x1 x2 := by
  funext p
  obtain ⟨a, d, rfl⟩ : ∃ (a : Fin 6144) (d : Fin 512), p = ix2 a d := ⟨p 0, p 1, eq_ix2 p⟩
  have el : ∀ k : Fin 6144, lidx_main_v47 (ix2 a d) k = ix2 a k := fun k =>
    funext fun e => Fin.ext (by match e with | ⟨0, _⟩ => rfl | ⟨1, _⟩ => rfl)
  have er : ∀ k : Fin 6144, ridx_main_v47 (ix2 a d) k = ix2 k d := fun k =>
    funext fun e => Fin.ext (by match e with | ⟨0, _⟩ => rfl | ⟨1, _⟩ => rfl)
  rw [val_main_v47_apply]
  simp only [el, er, kn_at x1 x2 hc hα]
  rfl

end Cert.Diffusion.Ref
-- ==== Proof.lean ====
/-
  The five claims for the contact-diffusion kernel against its reference.

  Frames. The kernel's program (at the word level and idealized) runs its one region over the 48 row blocks; the
  frame of each is the whole-region frame run with the body's stores read as functions of the grid point. The
  reference has no region: its frame is its run with the results dropped.

  Idealization. One rewrite: the folded scale −1/12, named, denotes the rational −1/12.

  Values. On the extended reals the kernel's two result arrays are the specification's K and K · latent of the
  argument arrays (Proof/KernelValue.lean: row block by row block, no finiteness needed), and so are the
  reference's (Proof/RefValue.lean), once every coordinate and exponent is a real number — which is what the
  precondition says (Proof/Finite.lean) and what the laws joining the two spellings need: |a|² + |b|² − 2⟨a, b⟩
  = |a − b|², D ^ (−a) = exp (−a · log D) for D > 0, −D / 12 = D · (−1/12), and the factor 1 − δ_ij zeroing the
  diagonal (Proof/Spec.lean).
-/
import proofs.«148434_j5634997092631_1_alg».proof.Defs
import proofs.«148434_j5634997092631_1_alg».proof.Proof.Gen.Kernel
import proofs.«148434_j5634997092631_1_alg».proof.Proof.Gen.Kernel.Skeleton
import proofs.«148434_j5634997092631_1_alg».proof.Proof.Gen.Kernel.Launch
import proofs.«148434_j5634997092631_1_alg».proof.Proof.Gen.Kernel.Points
import proofs.«148434_j5634997092631_1_alg».proof.Proof.FrameKernel
import proofs.«148434_j5634997092631_1_alg».proof.Proof.Gen.KernelIdeal
import proofs.«148434_j5634997092631_1_alg».proof.Proof.Gen.KernelIdeal.Skeleton
import proofs.«148434_j5634997092631_1_alg».proof.Proof.Gen.KernelIdeal.Launch
import proofs.«148434_j5634997092631_1_alg».proof.Proof.Gen.KernelIdeal.Points
import proofs.«148434_j5634997092631_1_alg».proof.Proof.FrameKernelIdeal
import proofs.«148434_j5634997092631_1_alg».proof.Proof.Gen.ReferenceIdeal
import proofs.«148434_j5634997092631_1_alg».proof.Proof.Gen.ReferenceIdeal.Run
import proofs.«148434_j5634997092631_1_alg».proof.Proof.Gen.ReferenceIdeal.Read
import proofs.«148434_j5634997092631_1_alg».proof.Proof.Gen.Pre_finite_inputs
import proofs.«148434_j5634997092631_1_alg».proof.Proof.Spec
import proofs.«148434_j5634997092631_1_alg».proof.Proof.Finite
import proofs.«148434_j5634997092631_1_alg».proof.Proof.KernelValue
import proofs.«148434_j5634997092631_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- The one rewrite of the idealization: the named scale denotes −1/12. -/
theorem preserves : Cert.preserves_Kernel_KernelIdeal :=
  IdealRules.named_const.statement Cert.KernelIdeal.κ "neg_inv_12" .f32 0xBDAAAAAB#32 ((-1 / 12 : ℝ) : EReal) rfl

/-- From memories agreeing on the arguments, both programs end with K · latent and K at the specification's arrays
    of the kernel's arguments: the kernel by its blocks, the reference by its stages read at real inputs. -/
theorem algebraic : Cert.algebraic_KernelIdeal_ReferenceIdeal := by
  intro m ρ m' ρ' hpre hagree
  refine ⟨fun c => Cert.Diffusion.KValue.outOf m c, fun c => Cert.Diffusion.KValue.kOf m c,
    Cert.Diffusion.KValue.run m ρ, ?_⟩
  refine (θ_run Cert.ReferenceIdeal.defs _ _).mono (fun r h c => ?_) (Cert.ReferenceIdeal.Value.run (F := Ideal) m' ρ')
  obtain ⟨h47, h46, ha0, ha1, ha2⟩ := h c
  obtain ⟨e0, e1, e2⟩ := hagree c
  have hc : ∀ p, ∃ x : ℝ, m' ((c.tc : Thread Cert.ReferenceIdeal.nD Cert.ReferenceIdeal.τ).loc Cert.ReferenceIdeal.main_arg1) p = (x : EReal) := by
    rw [e1]; exact fun p => Cert.Diffusion.Finite.coords_real _ _ _ (hpre c) p
  have hα : ∀ p, ∃ x : ℝ, m' ((c.tc : Thread Cert.ReferenceIdeal.nD Cert.ReferenceIdeal.τ).loc Cert.ReferenceIdeal.main_arg2) p = (x : EReal) := by
    rw [e2]; exact fun p => Cert.Diffusion.Finite.alpha_real _ _ _ (hpre c) p
  refine ⟨h47.trans ?_, h46.trans ?_, ha0, ha1, ha2⟩
  · rw [Cert.ReferenceIdeal.Read.val_main_v47_eq, Cert.Diffusion.Ref.outstage_eq _ _ _ hc hα, e0, e1, e2]
    rfl
  · rw [Cert.ReferenceIdeal.Read.val_main_v46_eq, Cert.Diffusion.Ref.kstage_eq _ _ hc hα, e1, e2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
